-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S5000 : Shape := ⟨1, ![5000]⟩
abbrev S5000x1 : Shape := ⟨2, ![5000, 1]⟩

abbrev nBuf : Space → Nat
  | .hbm => 43
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S128x128, .f32⟩
  | .hbm, ⟨8, _⟩ => ⟨S1x128, .f32⟩
  | .hbm, ⟨9, _⟩ => ⟨S100000x128, .bf16⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .bf16⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S128x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000, .i1⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named. @main is two kernel regions among stretches of host
  operations; the contents of every buffer at each boundary are a fold from the launch memory: a host
  stretch applies its operations, a region leaves each of its arrays at what its write-backs fold to and
  every other buffer as entered. The last boundary's contents are `W6`, and the result `main_v26` is the
  second region's output array there. This module states the run with that conjunct beside the unchanged
  arguments: every weakly fair execution terminates, nothing faulting, the result buffer at `W6`.
-/
import proofs.«177201_j59330678227073_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the seven arguments as launched. -/
theorem run_result : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.LibReadFold.lean ====
/-
  Reading one buffer out of a fold of host operations.

  A line of host operations leaves every buffer at the fold of the operations' results over the contents it started
  from. Read at one buffer, the fold is a computation: an operation's result at its own buffer is its function's value
  of its operands' contents, and at any other buffer what was there. The library does this in one rewriting pass;
  two kinds of residue are left to finish here — reads that sit inside a `concatenate`'s list of (shape, array)
  pairs, which the pass does not enter, and the transports of a called function's values between a buffer's type and
  the value's type, which are identities (the two types are the same type).
-/
import Idealize.ShloMosaic.Lib.StableHlo.Run

namespace Cert.ReadFold

open Idealize.ShloMosaic Idealize.ShloMosaic.StableHlo

/-- After the one-pass reading of a fold of host operations, the reads left under a `concatenate`'s list of
    (shape, array) pairs: each operation's result at its own buffer is its function's value, at any other buffer
    what was there. -/
macro "finish_results" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- Read a buffer out of a fold: the one-pass reading, then the reads left under a `concatenate`, then the identity
    transports. -/
macro "read_fold" : tactic =>
  `(tactic| (after_results_simp <;> finish_results <;> try simp only [StableHlo.TRef.toBuf, StableHlo.TRef.ofBuf, cast_eq]))

end Cert.ReadFold
-- ==== Proof.KernelRead.lean ====
/-
  The host operations of the idealized kernel's @main, read back. Before the first region the weight is
  transposed and the bias viewed as a row; between the regions the neighbourhood mean of the first region's
  output is formed (the degree count, the gather by source widened to f32, the sum by target, the division by the
  degree or by one), and the gain and the shift are viewed as rows. Each stretch is read as a function of
  the contents it starts from.
-/
import proofs.«177201_j59330678227073_2_alg».proof.Proof.Gen.KernelIdeal.Frame
import proofs.«177201_j59330678227073_2_alg».proof.Proof.LibReadFold

noncomputable section

namespace Cert.KernelIdeal.RunValue

open Cert.KernelIdeal Cert.KernelIdeal.Gen Idealize.ShloMosaic Idealize.ShloMosaic.TcCoe Idealize.SL.Sem Idealize.ShloMosaic.StableHlo
open Cert.ReadFold

variable {F : FTy → Type} [FloatOps F]

/-- The degree of every node: a one added at its target for every edge. -/
def degree (r : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 r)
    (broadcastInDim S1600000 ![] bcast_S_S1600000 (constant (F := F) S_ .f32 0x3F800000#32))

/-- The sources' features (stored narrow, widened after the gather) summed by target and divided by the degree
    (by one where it is zero). -/
def mean (f : (⟨S100000x128, .bf16⟩ : BufTy).Contents (Elt F)) (r c : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 r)
      (extf .f32
        (Host.gather gather_S100000x128_S1600000x1_S1600000x128_1_0_n_n_0_1_1128 f
          (broadcastInDim S1600000x1 ![0] bcast_S1600000_S1600000x1_0
            (select (cmpi .slt c (broadcastInDim S1600000 ![] bcast_S_S1600000 (constantI S_ 32 0#32)))
              (addi c (broadcastInDim S1600000 ![] bcast_S_S1600000 (constantI S_ 32 100000#32))) c)))
        bitsLt_bf16_f32))
    (broadcastInDim S100000x128 ![0, 1] bcast_S100000x1_S100000x128_0_1
      (broadcastInDim S100000x1 ![0] bcast_S100000_S100000x1_0
        (select (cmpf .oeq (degree r) (broadcastInDim S100000 ![] bcast_S_S100000 (constant (F := F) S_ .f32 0x00000000#32)))
          (broadcastInDim S100000 ![] bcast_S_S100000 (id (constant (F := F) S_ .f32 0x3F800000#32)))
          (degree r))))

variable (U : Valuation τ sig (Elt F))

/-! ## Before the first region -/

theorem read_wt : after hostOps0 U (Proc.devRef .tc main_v0)
    = transpose S128x128 [1, 0] (U (Proc.devRef .tc main_arg1)) transposes_S128x128_S128x128_1_0 := by
  read_fold

theorem read_bias_row : after hostOps0 U (Proc.devRef .tc main_v1)
    = shapeCast S1x128 (U (Proc.devRef .tc main_arg2)) shapeCasts_S128_S1x128 := by
  read_fold
  rfl

theorem host0_keeps_arg0 : after hostOps0 U (Proc.devRef .tc main_arg0) = U (Proc.devRef .tc main_arg0) := by
  after_results_simp

/-! ## Between the regions -/

theorem read_mean : after hostOps1_2 (after hostOps1_1 (after hostOps1 U)) (Proc.devRef .tc main_v23)
    = mean (U (Proc.devRef .tc main_v2)) (U (Proc.devRef .tc main_arg5)) (U (Proc.devRef .tc main_arg6)) := by
  unfold mean degree
  read_fold

theorem read_gain_row : after hostOps1_2 (after hostOps1_1 (after hostOps1 U)) (Proc.devRef .tc main_v24)
    = shapeCast S1x128 (U (Proc.devRef .tc main_arg3)) shapeCasts_S128_S1x128 := by
  read_fold
  rfl

theorem read_shift_row : after hostOps1_2 (after hostOps1_1 (after hostOps1 U)) (Proc.devRef .tc main_v25)
    = shapeCast S1x128 (U (Proc.devRef .tc main_arg4)) shapeCasts_S128_S1x128 := by
  read_fold
  rfl

theorem host1_keeps_arg0 : after hostOps1_2 (after hostOps1_1 (after hostOps1 U)) (Proc.devRef .tc main_arg0)
    = U (Proc.devRef .tc main_arg0) := by
  after_results_simp

end Cert.KernelIdeal.RunValue

end
-- ==== Proof.Spec.lean ====
/-
  The two node-wise formulas of the layer, one entry at a time, over the extended reals and arbitrary extents.

  * `layerAt X Wt B p q` — entry (p, q) of relu(X·Wt + B): the inner product of row p of X with column q of Wt,
    plus the bias of lane q, and the maximum of that with zero.
  * `normAt X A G T p q` — entry (p, q) of the normalised residual: with h = X + A, the entry h(p, q) times the
    reciprocal root of (the sum of the squares of row p of h, divided by 128, plus the small constant), times the
    gain of lane q, plus the shift of lane q. The divisor and the small constant are the float words the programs
    carry, read as the extended reals they denote.
-/
import Idealize.ShloMosaic.PureOps.Ideal
import Idealize.ShloMosaic.Lib.ValueIdx

noncomputable section

namespace Cert.Spec

open Idealize.ShloMosaic Idealize.ShloMosaic.ValueIdx

/-- Entry (p, q) of relu(X·Wt + B), B a 1×N row. -/
def layerAt {R K N : Nat} (X : (⟨2, ![R, K]⟩ : Shape).Idx → EReal) (Wt : (⟨2, ![K, N]⟩ : Shape).Idx → EReal)
    (B : (⟨2, ![1, N]⟩ : Shape).Idx → EReal) (p : Fin R) (q : Fin N) : EReal :=
  max ((∑ k : Fin K, X (ix2 p k) * Wt (ix2 k q)) + B (ix2 (0 : Fin 1) q)) (Ideal.ofBits .f32 0x00000000#32)

/-- The sum of the squares of row p of X + A. -/
def rowSquares {R N : Nat} (X A : (⟨2, ![R, N]⟩ : Shape).Idx → EReal) (p : Fin R) : EReal :=
  ∑ l : Fin N, (X (ix2 p l) + A (ix2 p l)) * (X (ix2 p l) + A (ix2 p l))

/-- Entry (p, q) of the residual X + A normalised by its row's root mean square, gained by G and shifted by T. -/
def normAt {R N : Nat} (X A : (⟨2, ![R, N]⟩ : Shape).Idx → EReal) (G T : (⟨2, ![1, N]⟩ : Shape).Idx → EReal)
    (p : Fin R) (q : Fin N) : EReal :=
  (X (ix2 p q) + A (ix2 p q))
      * Ideal.rsqrt (Ideal.div (rowSquares X A p) (Ideal.ofBits .f32 0x43000000#32) + Ideal.ofBits .f32 0x3727C5AC#32)
      * G (ix2 (0 : Fin 1) q)
    + T (ix2 (0 : Fin 1) q)

/-- relu(X·Wt + B) as one array. -/
def layerArr {R K N : Nat} (X : (⟨2, ![R, K]⟩ : Shape).Idx → EReal) (Wt : (⟨2, ![K, N]⟩ : Shape).Idx → EReal)
    (B : (⟨2, ![1, N]⟩ : Shape).Idx → EReal) : (⟨2, ![R, N]⟩ : Shape).Idx → EReal :=
  fun i => layerAt X Wt B (i 0) (i 1)

/-- The normalised residual as one array. -/
def normArr {R N : Nat} (X A : (⟨2, ![R, N]⟩ : Shape).Idx → EReal) (G T : (⟨2, ![1, N]⟩ : Shape).Idx → EReal) :
    (⟨2, ![R, N]⟩ : Shape).Idx → EReal :=
  fun i => normAt X A G T (i 0) (i 1)

theorem layerArr_apply {R K N : Nat} (X : (⟨2, ![R, K]⟩ : Shape).Idx → EReal) (Wt : (⟨2, ![K, N]⟩ : Shape).Idx → EReal)
    (B : (⟨2, ![1, N]⟩ : Shape).Idx → EReal) (p : Fin R) (q : Fin N) : layerArr X Wt B (ix2 p q) = layerAt X Wt B p q := rfl

theorem normArr_apply {R N : Nat} (X A : (⟨2, ![R, N]⟩ : Shape).Idx → EReal) (G T : (⟨2, ![1, N]⟩ : Shape).Idx → EReal)
    (p : Fin R) (q : Fin N) : normArr X A G T (ix2 p q) = normAt X A G T p q := rfl

/-- One entry of the layer depends on its operands only through row p of X, column q of Wt and lane q of B. -/
theorem layerAt_congr {R R' K N : Nat} {X : (⟨2, ![R, K]⟩ : Shape).Idx → EReal} {X' : (⟨2, ![R', K]⟩ : Shape).Idx → EReal}
    {Wt Wt' : (⟨2, ![K, N]⟩ : Shape).Idx → EReal} {B B' : (⟨2, ![1, N]⟩ : Shape).Idx → EReal} {p : Fin R} {p' : Fin R'} {q : Fin N}
    (hX : ∀ k : Fin K, X (ix2 p k) = X' (ix2 p' k)) (hW : ∀ k : Fin K, Wt (ix2 k q) = Wt' (ix2 k q))
    (hB : B (ix2 (0 : Fin 1) q) = B' (ix2 (0 : Fin 1) q)) : layerAt X Wt B p q = layerAt X' Wt' B' p' q := by
  unfold layerAt
  rw [hB, Finset.sum_congr rfl fun k _ => by rw [hX k, hW k]]

/-- One entry of the normalised residual depends on its operands only through row p of X and A and lane q of G and T. -/
theorem normAt_congr {R R' N : Nat} {X A : (⟨2, ![R, N]⟩ : Shape).Idx → EReal} {X' A' : (⟨2, ![R', N]⟩ : Shape).Idx → EReal}
    {G G' T T' : (⟨2, ![1, N]⟩ : Shape).Idx → EReal} {p : Fin R} {p' : Fin R'} {q : Fin N}
    (hX : ∀ l : Fin N, X (ix2 p l) = X' (ix2 p' l)) (hA : ∀ l : Fin N, A (ix2 p l) = A' (ix2 p' l))
    (hG : G (ix2 (0 : Fin 1) q) = G' (ix2 (0 : Fin 1) q)) (hT : T (ix2 (0 : Fin 1) q) = T' (ix2 (0 : Fin 1) q)) :
    normAt X A G T p q = normAt X' A' G' T' p' q := by
  unfold normAt rowSquares
  rw [hG, hT, hX q, hA q, Finset.sum_congr rfl fun l _ => by rw [hX l, hA l]]

end Cert.Spec

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.KernelPay.lean ====
/-
  What each kernel body stores, read at one entry. The first body multiplies its block of rows by the whole
  transposed weight on the matrix unit (into a zero accumulator), adds the bias row to every row and clamps at
  zero; the changes of format around it are the identity over the extended reals. The second body adds the block
  of the mean to the block of x, sums the squares along the lanes, keeps that as a column, divides by 128, adds
  the small constant, takes the reciprocal root, spreads it back over the lanes and applies gain and shift.
-/
import proofs.«177201_j59330678227073_2_alg».proof.Proof.Gen.KernelIdeal.Skeleton
import proofs.«177201_j59330678227073_2_alg».proof.Proof.Spec
import proofs.«177201_j59330678227073_2_alg».proof.Proof.LibPlainDot
import proofs.«177201_j59330678227073_2_alg».proof.Proof.LibRowVector
import proofs.«177201_j59330678227073_2_alg».proof.Proof.LibRowOps
import Idealize.ShloMosaic.Lib.Pipeline.Value

noncomputable section

namespace Cert.KernelIdeal.RunValue

open Cert.KernelIdeal Cert.KernelIdeal.Gen Cert.Spec Idealize.ShloMosaic Idealize.ShloMosaic.ValueIdx

/-- The first body's store at (p, q): entry (p, q) of relu(x0·x1 + x2). -/
theorem pay_layer (x0 : Vec Ideal S5000x128 .f32) (x1 : Vec Ideal S128x128 .f32) (x2 : Vec Ideal S1x128 .f32)
    (p : Fin 5000) (q : Fin 128) :
    k0_pay1 (F := Ideal) x0 x1 x2 (ix2 p q) = layerAt x0 x1 x2 p q := by
  have hmm : matmul dot_S5000x128_S128x128_S5000x128_1_0_0_1_n_n none (truncf .bf16 x0 bitsLt_bf16_f32)
        (truncf .bf16 (shapeCast S128x128 x1 shapeCasts_S128x128_S128x128) bitsLt_bf16_f32)
        (constant (F := Ideal) S5000x128 .f32 0x00000000#32) (ix2 p q)
      = ∑ k : Fin 128, x0 (ix2 p k) * x1 (ix2 k q) := by
    refine (Cert.PlainDot.matmul_zero_apply dot_S5000x128_S128x128_S5000x128_1_0_0_1_n_n rfl none _ _ p q).trans ?_
    refine Finset.sum_congr rfl fun k _ => ?_
    show x0 (ix2 p k) * shapeCast S128x128 x1 shapeCasts_S128x128_S128x128 (ix2 k q) = _
    rw [shapeCast_self]
  have hb : broadcastTo S5000x128 (shapeCast S1x128 x2 shapeCasts_S1x128_S1x128) broadcasts_S1x128_S5000x128 (ix2 p q)
      = x2 (ix2 (0 : Fin 1) q) := by
    refine (Cert.RowVector.broadcastTo_row (by decide) _ broadcasts_S1x128_S5000x128 p q).trans ?_
    rw [shapeCast_self]
  show max (matmul dot_S5000x128_S128x128_S5000x128_1_0_0_1_n_n none (truncf .bf16 x0 bitsLt_bf16_f32)
        (truncf .bf16 (shapeCast S128x128 x1 shapeCasts_S128x128_S128x128) bitsLt_bf16_f32)
        (constant (F := Ideal) S5000x128 .f32 0x00000000#32) (ix2 p q)
      + broadcastTo S5000x128 (shapeCast S1x128 x2 shapeCasts_S1x128_S1x128) broadcasts_S1x128_S5000x128 (ix2 p q))
      (Ideal.ofBits .f32 0x00000000#32) = _
  rw [hmm, hb]
  rfl

/-- The lane sum of the squares kept as a column, at row p. -/
theorem squares_column (x0 x1 : FVec Ideal S5000x128 .f32) (p : Fin 5000) :
    shapeCast S5000x1
        (multiReduction (F := Ideal) .add [1] S5000
          (mulf (addf x0 (shapeCast S5000x128 x1 shapeCasts_S5000x128_S5000x128))
            (addf x0 (shapeCast S5000x128 x1 shapeCasts_S5000x128_S5000x128)))
          0x00000000#32 reduces_S5000x128_S5000 (.inl rfl) rfl)
        shapeCasts_S5000_S5000x1 (ix2 p (0 : Fin 1))
      = rowSquares x0 x1 p := by
  refine (RowOps.shapeCast_a_a1_apply _ shapeCasts_S5000_S5000x1 p 0).trans ?_
  refine (RowOps.rowSum_apply _ 0x00000000#32 reduces_S5000x128_S5000 (.inl rfl) rfl p).trans ?_
  refine Finset.sum_congr rfl fun l _ => ?_
  show (x0 (ix2 p l) + shapeCast S5000x128 x1 shapeCasts_S5000x128_S5000x128 (ix2 p l))
      * (x0 (ix2 p l) + shapeCast S5000x128 x1 shapeCasts_S5000x128_S5000x128 (ix2 p l)) = _
  rw [shapeCast_self]

/-- The second body's store at (p, q): entry (p, q) of the normalised residual of its blocks. -/
theorem pay_norm (x0 x1 : FVec Ideal S5000x128 .f32) (x2 x3 : FVec Ideal S1x128 .f32) (p : Fin 5000) (q : Fin 128) :
    k1_pay1 (F := Ideal) x0 x1 x2 x3 (ix2 p q) = normAt x0 x1 x2 x3 p q := by
  have hg : broadcastTo S5000x128 (shapeCast S1x128 x2 shapeCasts_S1x128_S1x128) broadcasts_S1x128_S5000x128 (ix2 p q)
      = x2 (ix2 (0 : Fin 1) q) := by
    refine (Cert.RowVector.broadcastTo_row (by decide) _ broadcasts_S1x128_S5000x128 p q).trans ?_
    rw [shapeCast_self]
  have ht : broadcastTo S5000x128 (shapeCast S1x128 x3 shapeCasts_S1x128_S1x128) broadcasts_S1x128_S5000x128 (ix2 p q)
      = x3 (ix2 (0 : Fin 1) q) := by
    refine (Cert.RowVector.broadcastTo_row (by decide) _ broadcasts_S1x128_S5000x128 p q).trans ?_
    rw [shapeCast_self]
  have hr : broadcastTo S5000x128
        (rsqrt (F := Ideal) (addf (divf
          (shapeCast S5000x1
            (multiReduction (F := Ideal) .add [1] S5000
              (mulf (addf x0 (shapeCast S5000x128 x1 shapeCasts_S5000x128_S5000x128))
                (addf x0 (shapeCast S5000x128 x1 shapeCasts_S5000x128_S5000x128)))
              0x00000000#32 reduces_S5000x128_S5000 (.inl rfl) rfl)
            shapeCasts_S5000_S5000x1)
          (broadcast S5000x1 (Scalar.ofBits (F := Ideal) .f32 0x43000000#32)))
          (broadcast S5000x1 (Scalar.ofBits (F := Ideal) .f32 0x3727C5AC#32))))
        broadcasts_S5000x1_S5000x128 (ix2 p q)
      = Ideal.rsqrt (Ideal.div (rowSquares x0 x1 p) (Ideal.ofBits .f32 0x43000000#32) + Ideal.ofBits .f32 0x3727C5AC#32) := by
    refine (RowOps.broadcastTo_a1_ab_apply _ broadcasts_S5000x1_S5000x128 p q).trans ?_
    show Ideal.rsqrt (Ideal.div (shapeCast S5000x1 _ shapeCasts_S5000_S5000x1 (ix2 p (0 : Fin 1))) (Ideal.ofBits .f32 0x43000000#32)
      + Ideal.ofBits .f32 0x3727C5AC#32) = _
    rw [squares_column]
  have hx : shapeCast S5000x128 x1 shapeCasts_S5000x128_S5000x128 (ix2 p q) = x1 (ix2 p q) := by rw [shapeCast_self]
  show (x0 (ix2 p q) + shapeCast S5000x128 x1 shapeCasts_S5000x128_S5000x128 (ix2 p q))
        * broadcastTo S5000x128 _ broadcasts_S5000x1_S5000x128 (ix2 p q)
        * broadcastTo S5000x128 (shapeCast S1x128 x2 shapeCasts_S1x128_S1x128) broadcasts_S1x128_S5000x128 (ix2 p q)
      + broadcastTo S5000x128 (shapeCast S1x128 x3 shapeCasts_S1x128_S1x128) broadcasts_S1x128_S5000x128 (ix2 p q) = _
  rw [hr, hg, ht, hx]
  rfl

end Cert.KernelIdeal.RunValue

end
-- ==== Proof.Blocks0.lean ====
/-
  The first region's output as one array. The grid has 20 points; point t reads rows 5000·t … 5000·t + 4999 of x,
  the whole transposed weight and the bias row, and writes back the same rows of the output. So block t of the
  output is block t of relu(x·Wt + b), and the 20 blocks fill the array: row r lies in block r / 5000. The
  statement is made at any contents V the region is entered with.
-/
import proofs.«177201_j59330678227073_2_alg».proof.Proof.Gen.KernelIdeal.Frame
import proofs.«177201_j59330678227073_2_alg».proof.Proof.KernelPay
import Idealize.ShloMosaic.Lib.Pipeline.Value

set_option maxRecDepth 16384

noncomputable section

namespace Cert.KernelIdeal.RunValue

open Cert.KernelIdeal Cert.KernelIdeal.Gen Cert.Spec Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row blocks move with the point, the weight and the bias stay. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 5000·t + p of the array. -/
def rowOf0 (t : Fin cfg0.N) (p : Fin 5000) : Fin 100000 :=
  ⟨t.val * 5000 + p.val, by have hN : grid0.N = 20 := N_0; have ht : t.val < grid0.N := t.isLt; have := p.isLt; omega⟩

theorem at0_x (t : Fin cfg0.N) (p : Fin 5000) (k : Fin 128) :
    ((cfg0.win 0).blk t).view.emb (ix2 p k) = ix2 (rowOf0 t p) k := by
  obtain ⟨e0, e1, -⟩ := maps0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem at0_w (t : Fin cfg0.N) (k q : Fin 128) : ((cfg0.win 1).blk t).view.emb (ix2 k q) = ix2 k q := by
  obtain ⟨-, -, e2, e3, -⟩ := maps0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem at0_b (t : Fin cfg0.N) (z : Fin 1) (q : Fin 128) : ((cfg0.win 2).blk t).view.emb (ix2 z q) = ix2 z q := by
  obtain ⟨-, -, -, -, e4, e5, -⟩ := maps0 t
  funext a; apply Fin.ext
  match a with
  | ⟨0, _⟩ => show win0_2.index t (0 : Fin 2) * 1 + 1 * z.val = z.val; omega
  | ⟨1, _⟩ => show win0_2.index t (1 : Fin 2) * 128 + 1 * q.val = q.val; omega

theorem at0_out (t : Fin cfg0.N) (p : Fin 5000) (q : Fin 128) :
    ((cfg0.win 3).blk t).view.emb (ix2 p q) = ix2 (rowOf0 t p) q := by
  obtain ⟨-, -, -, -, -, -, e6, e7⟩ := maps0 t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point t writes back is block t of relu(x·Wt + b) of the arrays as the region finds them. -/
theorem flushed0 (c : Dev nD) (t : Fin cfg0.N) :
    (dat0 V c).flushed 3 t
      = ((cfg0.win 3).blk t).view.read (Elt Ideal) (layerArr (V c main_arg0) (V c main_v0) (V c main_v1)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S1x128) origin]
  funext j
  have hj : j = ix2 (⟨(j 0).val, (j 0).isLt⟩ : Fin 5000) (⟨(j 1).val, (j 1).isLt⟩ : Fin 128) :=
    funext fun a => by match a with | ⟨0, _⟩ => rfl | ⟨1, _⟩ => rfl
  rw [hj]
  show k0_pay1 (F := Ideal) (iblk0 V c 0 t) (iblk0 V c 1 t) (iblk0 V c 2 t) (ix2 _ _)
    = layerArr (V c main_arg0) (V c main_v0) (V c main_v1) (((cfg0.win 3).blk t).view.emb (ix2 _ _))
  rw [at0_out, layerArr_apply, pay_layer]
  exact layerAt_congr
    (fun k => congrArg (V c main_arg0) (at0_x t _ k))
    (fun k => congrArg (V c main_v0) (at0_w t k _))
    (congrArg (V c main_v1) (at0_b t 0 _))

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- Every index is in some point's block: row r is in block r / 5000. -/
theorem cover0 (i : S100000x128.Idx) :
    ∃ t : Fin cfg0.N, (cfg0.win 3).flush t = true ∧ i ∈ ((cfg0.win 3).blk t).view.set := by
  have hN : grid0.N = 20 := N_0
  have hi0 : (i 0).val < 100000 := (i 0).isLt
  have hi1 : (i 1).val < 128 := (i 1).isLt
  have ht : (i 0).val / 5000 < grid0.N := by omega
  obtain ⟨-, -, -, -, -, -, e6, e7⟩ := maps0 (⟨(i 0).val / 5000, ht⟩ : Fin cfg0.N)
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- The first region's output array after the region: relu(x·Wt + b) of the arrays it was entered with. -/
theorem final0 (c : Dev nD) :
    (dat0 V c).arrAt 3 cfg0.N = layerArr (V c main_arg0) (V c main_v0) (V c main_v1) :=
  (dat0 V c).arrAt_eq_of_cover 3 _ (fun t _ => flushed0 V c t) cover0

end Cert.KernelIdeal.RunValue

end
-- ==== Proof.Blocks1.lean ====
/-
  The second region's output as one array. The grid has 20 points; point t reads rows 5000·t … 5000·t + 4999 of x
  and of the neighbourhood mean, the gain row and the shift row, and writes back the same rows of the result. A
  row's normalisation uses that row only, so block t of the result is block t of the normalised residual of the
  whole arrays, and the 20 blocks fill the array. The statement is made at any contents V the region is entered
  with.
-/
import proofs.«177201_j59330678227073_2_alg».proof.Proof.Gen.KernelIdeal.Frame
import proofs.«177201_j59330678227073_2_alg».proof.Proof.KernelPay
import Idealize.ShloMosaic.Lib.Pipeline.Value

set_option maxRecDepth 16384

noncomputable section

namespace Cert.KernelIdeal.RunValue

open Cert.KernelIdeal Cert.KernelIdeal.Gen Cert.Spec Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin1 : (![0, 0] : Fin 2 → Nat) = fun _ => 0 := funext fun a => by fin_cases a <;> rfl

/-- The printed index maps over the grid: the row blocks move with the point, the gain and the shift stay. -/
theorem maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block is row 5000·t + p of the array. -/
def rowOf1 (t : Fin cfg1.N) (p : Fin 5000) : Fin 100000 :=
  ⟨t.val * 5000 + p.val, by have hN : grid1.N = 20 := N_1; have ht : t.val < grid1.N := t.isLt; have := p.isLt; omega⟩

theorem at1_x (t : Fin cfg1.N) (p : Fin 5000) (l : Fin 128) :
    ((cfg1.win 0).blk t).view.emb (ix2 p l) = ix2 (rowOf1 t p) l := by
  obtain ⟨e0, e1, -⟩ := maps1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * l.val = l.val; omega

theorem at1_mean (t : Fin cfg1.N) (p : Fin 5000) (l : Fin 128) :
    ((cfg1.win 1).blk t).view.emb (ix2 p l) = ix2 (rowOf1 t p) l := by
  obtain ⟨-, -, e2, e3, -⟩ := maps1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * l.val = l.val; omega

theorem at1_gain (t : Fin cfg1.N) (z : Fin 1) (q : Fin 128) : ((cfg1.win 2).blk t).view.emb (ix2 z q) = ix2 z q := by
  obtain ⟨-, -, -, -, e4, e5, -⟩ := maps1 t
  funext a; apply Fin.ext
  match a with
  | ⟨0, _⟩ => show win1_2.index t (0 : Fin 2) * 1 + 1 * z.val = z.val; omega
  | ⟨1, _⟩ => show win1_2.index t (1 : Fin 2) * 128 + 1 * q.val = q.val; omega

theorem at1_shift (t : Fin cfg1.N) (z : Fin 1) (q : Fin 128) : ((cfg1.win 3).blk t).view.emb (ix2 z q) = ix2 z q := by
  obtain ⟨-, -, -, -, -, -, e6, e7, -⟩ := maps1 t
  funext a; apply Fin.ext
  match a with
  | ⟨0, _⟩ => show win1_3.index t (0 : Fin 2) * 1 + 1 * z.val = z.val; omega
  | ⟨1, _⟩ => show win1_3.index t (1 : Fin 2) * 128 + 1 * q.val = q.val; omega

theorem at1_out (t : Fin cfg1.N) (p : Fin 5000) (q : Fin 128) :
    ((cfg1.win 4).blk t).view.emb (ix2 p q) = ix2 (rowOf1 t p) q := by
  obtain ⟨-, -, -, -, -, -, -, -, e8, e9⟩ := maps1 t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega

/-- What point t writes back is block t of the normalised residual of the arrays as the region finds them. -/
theorem flushed1 (c : Dev nD) (t : Fin cfg1.N) :
    (dat1 V c).flushed 4 t
      = ((cfg1.win 4).blk t).view.read (Elt Ideal)
          (normArr (V c main_arg0) (V c main_v23) (V c main_v24) (V c main_v25)) := by
  show (cfg1.win 4).cut (grid1.coords t) ((dat1 V c).after 4 t) = _
  rw [after1_4]
  unfold out1_4
  rw [View.canon_unit_zero origin1]
  simp only [View.ld_unit_zero (S := S5000x128) origin1, View.ld_unit_zero (S := S1x128) origin1]
  funext j
  have hj : j = ix2 (⟨(j 0).val, (j 0).isLt⟩ : Fin 5000) (⟨(j 1).val, (j 1).isLt⟩ : Fin 128) :=
    funext fun a => by match a with | ⟨0, _⟩ => rfl | ⟨1, _⟩ => rfl
  rw [hj]
  show k1_pay1 (F := Ideal) (iblk1 V c 0 t) (iblk1 V c 1 t) (iblk1 V c 2 t) (iblk1 V c 3 t) (ix2 _ _)
    = normArr (V c main_arg0) (V c main_v23) (V c main_v24) (V c main_v25) (((cfg1.win 4).blk t).view.emb (ix2 _ _))
  rw [at1_out, normArr_apply, pay_norm]
  exact normAt_congr
    (fun l => congrArg (V c main_arg0) (at1_x t _ l))
    (fun l => congrArg (V c main_v23) (at1_mean t _ l))
    (congrArg (V c main_v24) (at1_gain t 0 _))
    (congrArg (V c main_v25) (at1_shift t 0 _))

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v26).slice (win1_4.rect t)).set ↔ _
  rw [View.set_slice_whole, Rect.mem_set_unit]
  exact Iff.rfl

/-- Every index is in some point's block: row r is in block r / 5000. -/
theorem cover1 (i : S100000x128.Idx) :
    ∃ t : Fin cfg1.N, (cfg1.win 4).flush t = true ∧ i ∈ ((cfg1.win 4).blk t).view.set := by
  have hN : grid1.N = 20 := N_1
  have hi0 : (i 0).val < 100000 := (i 0).isLt
  have hi1 : (i 1).val < 128 := (i 1).isLt
  have ht : (i 0).val / 5000 < grid1.N := by omega
  obtain ⟨-, -, -, -, -, -, -, -, e8, e9⟩ := maps1 (⟨(i 0).val / 5000, ht⟩ : Fin cfg1.N)
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

/-- The second region's output array after the region: the normalised residual of the arrays it was entered with. -/
theorem final1 (c : Dev nD) :
    (dat1 V c).arrAt 4 cfg1.N = normArr (V c main_arg0) (V c main_v23) (V c main_v24) (V c main_v25) :=
  (dat1 V c).arrAt_eq_of_cover 4 _ (fun t _ => flushed1 V c t) cover1

end Cert.KernelIdeal.RunValue

end
-- ==== Proof.KernelValue.lean ====
/-
  The idealized kernel's result as a function of its arguments. Walking the boundaries of @main: the first region
  is entered with x as launched, the transposed weight and the bias row; it leaves relu(x·Wt + b) in its output
  and everything else as entered; the host forms the neighbourhood mean of that output and views gain and shift
  as rows; the second region is entered with x, the mean and the two rows, and leaves the normalised residual in
  the result buffer.
-/
import proofs.«177201_j59330678227073_2_alg».proof.Proof.KernelRun
import proofs.«177201_j59330678227073_2_alg».proof.Proof.KernelRead
import proofs.«177201_j59330678227073_2_alg».proof.Proof.Blocks0
import proofs.«177201_j59330678227073_2_alg».proof.Proof.Blocks1

set_option maxRecDepth 16384

noncomputable section

namespace Cert.KernelIdeal.RunValue

open Cert.KernelIdeal Cert.KernelIdeal.Gen Cert.Spec Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The first region's entry -/

theorem entry0_x : V1 m ρ c main_arg0 = (m ((c : Thread nD τ).loc main_arg0)) := host0_keeps_arg0 (W0 m ρ c)
theorem entry0_wt : V1 m ρ c main_v0 = transpose S128x128 [1, 0] (m ((c : Thread nD τ).loc main_arg1)) transposes_S128x128_S128x128_1_0 :=
  read_wt (W0 m ρ c)
theorem entry0_bias : V1 m ρ c main_v1 = shapeCast S1x128 (m ((c : Thread nD τ).loc main_arg2)) shapeCasts_S128_S1x128 :=
  read_bias_row (W0 m ρ c)

/-- No operation before the first region writes an argument. -/
theorem entry0_keeps (b : Ref sig .tc) (hb : b ≠ main_v0 ∧ b ≠ main_v1) :
    W1 m ρ c (Proc.devRef .tc b) = W0 m ρ c (Proc.devRef .tc b) := by
  obtain ⟨h0, h1⟩ := hb
  show after hostOps0 (W0 m ρ c) (Proc.devRef .tc b) = _
  simp only [after_cons, after_nil]
  rw [reshape_result_ne _ _ _ _ _ _ _ h1, unary_result_ne _ _ _ _ _ _ h0]

/-! ## The first region's exit -/

/-- The layer, as the kernel's first region leaves it. -/
abbrev kernelLayer : S100000x128.Idx → EReal :=
  layerArr (m ((c : Thread nD τ).loc main_arg0)) (transpose S128x128 [1, 0] (m ((c : Thread nD τ).loc main_arg1)) transposes_S128x128_S128x128_1_0)
    (shapeCast S1x128 (m ((c : Thread nD τ).loc main_arg2)) shapeCasts_S128_S1x128)

theorem exit0_out : W2 m ρ c (Proc.devRef .tc main_v2) = kernelLayer m c := by
  refine (W2_arr m ρ c 3).trans ((final0 (V1 m ρ) c).trans ?_)
  rw [entry0_x, entry0_wt, entry0_bias]

theorem exit0_x : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (entry0_x m ρ c)

theorem exit0_arg3 : W2 m ρ c (Proc.devRef .tc main_arg3) = (m ((c : Thread nD τ).loc main_arg3)) :=
  (W2_of_ne m ρ c main_arg3 (by decide)).trans (entry0_keeps m ρ c main_arg3 (by decide))
theorem exit0_arg4 : W2 m ρ c (Proc.devRef .tc main_arg4) = (m ((c : Thread nD τ).loc main_arg4)) :=
  (W2_of_ne m ρ c main_arg4 (by decide)).trans (entry0_keeps m ρ c main_arg4 (by decide))
theorem exit0_arg5 : W2 m ρ c (Proc.devRef .tc main_arg5) = (m ((c : Thread nD τ).loc main_arg5)) :=
  (W2_of_ne m ρ c main_arg5 (by decide)).trans (entry0_keeps m ρ c main_arg5 (by decide))
theorem exit0_arg6 : W2 m ρ c (Proc.devRef .tc main_arg6) = (m ((c : Thread nD τ).loc main_arg6)) :=
  (W2_of_ne m ρ c main_arg6 (by decide)).trans (entry0_keeps m ρ c main_arg6 (by decide))

/-! ## The second region's entry -/

theorem entry1_x : V5 m ρ c main_arg0 = (m ((c : Thread nD τ).loc main_arg0)) :=
  (host1_keeps_arg0 (W2 m ρ c)).trans (exit0_x m ρ c)

theorem entry1_mean : V5 m ρ c main_v23 = mean (F := Ideal) (kernelLayer m c) (m ((c : Thread nD τ).loc main_arg5)) (m ((c : Thread nD τ).loc main_arg6)) := by
  refine (read_mean (W2 m ρ c)).trans ?_
  rw [exit0_out, exit0_arg5, exit0_arg6]

theorem entry1_gain : V5 m ρ c main_v24 = shapeCast S1x128 (m ((c : Thread nD τ).loc main_arg3)) shapeCasts_S128_S1x128 := by
  refine (read_gain_row (W2 m ρ c)).trans ?_
  rw [exit0_arg3]

theorem entry1_shift : V5 m ρ c main_v25 = shapeCast S1x128 (m ((c : Thread nD τ).loc main_arg4)) shapeCasts_S128_S1x128 := by
  refine (read_shift_row (W2 m ρ c)).trans ?_
  rw [exit0_arg4]

/-! ## The result -/

/-- The result buffer at the last boundary: the normalised residual of x with the neighbourhood mean of the layer. -/
theorem result : W6 m ρ c (Proc.devRef .tc main_v26)
    = normArr (m ((c : Thread nD τ).loc main_arg0)) (mean (F := Ideal) (kernelLayer m c) (m ((c : Thread nD τ).loc main_arg5)) (m ((c : Thread nD τ).loc main_arg6)))
        (shapeCast S1x128 (m ((c : Thread nD τ).loc main_arg3)) shapeCasts_S128_S1x128) (shapeCast S1x128 (m ((c : Thread nD τ).loc main_arg4)) shapeCasts_S128_S1x128) := by
  refine (W6_arr m ρ c 4).trans ((final1 (V5 m ρ) c).trans ?_)
  rw [entry1_x, entry1_mean, entry1_gain, entry1_shift]

/-! ## The same, as functions of arrays -/

/-- The layer as the kernel forms it: the weight transposed on the host, the bias viewed as a row. -/
def layerOf (x : FVec Ideal S100000x128 .f32) (W : FVec Ideal S128x128 .f32) (b : FVec Ideal S128 .f32) :
    S100000x128.Idx → EReal :=
  layerArr x (transpose S128x128 [1, 0] W transposes_S128x128_S128x128_1_0) (shapeCast S1x128 b shapeCasts_S128_S1x128)

/-- The kernel's result as a function of its seven arguments. -/
def resultOf (x : FVec Ideal S100000x128 .f32) (W : FVec Ideal S128x128 .f32) (b g t : FVec Ideal S128 .f32)
    (r c : (⟨S1600000, .i32⟩ : BufTy).Contents (Elt Ideal)) : S100000x128.Idx → EReal :=
  normArr x (mean (F := Ideal) (layerOf x W b) r c) (shapeCast S1x128 g shapeCasts_S128_S1x128)
    (shapeCast S1x128 t shapeCasts_S128_S1x128)

theorem result_of : W6 m ρ c (Proc.devRef .tc main_v26)
    = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  result m ρ c

end Cert.KernelIdeal.RunValue

end
-- ==== Proof.LibHostLine.lean ====
/-
  Three small facts about a straight line of host operations read over the extended reals, for any program.

  * A line cut in two: the contents after the whole line are the contents after the second part, started from the
    contents after the first. A long line is then read stretch by stretch, each stretch's last buffer as one
    function of the buffers the stretch starts from.
  * A rank-0 scalar spread over any shape (a `broadcast_in_dim` with no dimensions) reads the scalar at every
    index.
  * Widening or narrowing an array's float format is the identity over the extended reals, as one equation between
    arrays (the element-wise fact is the instance's own).
-/
import Idealize.ShloMosaic.Lib.StableHlo.Run
import Idealize.ShloMosaic.Lib.Pipeline.Value
import Idealize.ShloMosaic.PureOps.Ideal

noncomputable section

namespace Cert.HostLine

open Idealize.ShloMosaic Idealize.ShloMosaic.StableHlo

/-- The contents after two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A scalar spread over any shape reads the scalar everywhere. -/
theorem scalar_everywhere {α : Type} {t : Shape} (h : (⟨0, ![]⟩ : Shape).BroadcastsInDim t (![] : Fin 0 → Fin t.rank))
    (x : (⟨0, ![]⟩ : Shape).Idx → α) (j : t.Idx) : broadcastInDim t ![] h x j = x (fun a => a.elim0) :=
  broadcastInDim_apply _ h x j _ (fun a => a.elim0)

/-- Widening an array is the identity over the extended reals. -/
theorem extf_id {s : Shape} {φ ψ : FTy} (x : FVec Ideal s φ) (h : φ.bits < ψ.bits) : extf ψ x h = x := rfl

/-- Narrowing an array is the identity over the extended reals. -/
theorem truncf_id {s : Shape} {φ ψ : FTy} (x : FVec Ideal s φ) (h : ψ.bits < φ.bits) : truncf ψ x h = x := rfl

end Cert.HostLine

end
-- ==== Proof.RefRun.lean ====
/-
  The idealized reference's run, read back. Its @main is a straight line of 57 host operations (the two
  functions jax outlined, the relu and the `where`, stand at their call sites as their own three operations
  each). Every weakly fair execution terminates with every buffer at the fold of the operations' results
  over the launch contents. The line is cut where the mathematics cuts it: the node-wise layer
  relu(x·Wᵀ + b), then the neighbourhood mean (degree count, gather by source, sum by target, division by
  the degree), then the residual with its root-mean-square normalisation.
-/
import proofs.«177201_j59330678227073_2_alg».proof.Proof.Gen.ReferenceIdeal
import Idealize.ShloMosaic.Lib.StableHlo.Run
import proofs.«177201_j59330678227073_2_alg».proof.Proof.LibHostLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the node-wise layer: the last one writes `main_v5` = relu(x·Wᵀ + b). -/
abbrev opsLayer : List (HloOp τ sig (Elt F)) :=
  [ StableHlo.unary main_arg1 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S100000x128 ![0, 1] bcast_S1x128_S100000x128_0_1 : (⟨S1x128, .f32⟩ : BufTy).Contents (Elt F) → (⟨S100000x128, .f32⟩ : BufTy).Contents (Elt F)),
    StableHlo.binary main_v1 main_v3 main_v4 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (StableHlo.TRef.of (T := ⟨S100000x128, .f32⟩) main_v4) main_call0.v0 main_call0.v1 maximumf ]

/-- The operations of the neighbourhood mean: the last one writes `main_v25`. -/
abbrev opsMean : List (HloOp τ sig (Elt F)) :=
  [ StableHlo.nullary main_cst (constant S_ .f32 0x3F800000#32),
    StableHlo.unary main_cst main_v6 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.unary main_arg5 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c (constantI S_ 32 0#32),
    StableHlo.unary main_c main_v10 (broadcastInDim S1600000 ![] bcast_S_S1600000 : (⟨S_, .i32⟩ : BufTy).Contents (Elt F) → (⟨S1600000, .i32⟩ : BufTy).Contents (Elt F)),
    StableHlo.binary main_arg6 main_v10 main_v11 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v12 (broadcastInDim S1600000 ![] bcast_S_S1600000 : (⟨S_, .i32⟩ : BufTy).Contents (Elt F) → (⟨S1600000, .i32⟩ : BufTy).Contents (Elt F)),
    StableHlo.binary main_arg6 main_v12 main_v13 (addi : (⟨S1600000, .i32⟩ : BufTy).Contents (Elt F) → (⟨S1600000, .i32⟩ : BufTy).Contents (Elt F) → (⟨S1600000, .i32⟩ : BufTy).Contents (Elt F)),
    StableHlo.ternary main_v11 main_v13 main_arg6 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v14 main_v15 (broadcastInDim S1600000x1 ![0] bcast_S1600000_S1600000x1_0 : (⟨S1600000, .i32⟩ : BufTy).Contents (Elt F) → (⟨S1600000x1, .i32⟩ : BufTy).Contents (Elt F)),
    StableHlo.binary main_v5 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_2 (constant S_ .f32 0x00000000#32),
    StableHlo.unary main_cst_2 main_v17 (broadcastInDim S100000x128 ![] bcast_S_S100000x128 : (⟨S_, .f32⟩ : BufTy).Contents (Elt F) → (⟨S100000x128, .f32⟩ : BufTy).Contents (Elt F)),
    StableHlo.unary main_arg5 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_3 (constant S_ .f32 0x00000000#32),
    StableHlo.unary main_cst_3 main_v20 (broadcastInDim S100000 ![] bcast_S_S100000 : (⟨S_, .f32⟩ : BufTy).Contents (Elt F) → (⟨S100000, .f32⟩ : BufTy).Contents (Elt F)),
    StableHlo.binary main_v9 main_v20 main_v21 (cmpf .oeq : (⟨S100000, .f32⟩ : BufTy).Contents (Elt F) → (⟨S100000, .f32⟩ : BufTy).Contents (Elt F) → (⟨S100000, .i1⟩ : BufTy).Contents (Elt F)),
    StableHlo.nullary main_cst_4 (constant S_ .f32 0x3F800000#32),
    StableHlo.TRef.unary (StableHlo.TRef.of (T := ⟨S_, .f32⟩) main_cst_4) main_call1.v0 id,
    StableHlo.TRef.unary main_call1.v0 main_call1.v1 (broadcastInDim S100000 ![] bcast_S_S100000),
    StableHlo.TRef.ternary (StableHlo.TRef.of (T := ⟨S100000, .i1⟩) main_v21) main_call1.v1 (StableHlo.TRef.of (T := ⟨S100000, .f32⟩) main_v9) main_call1.v2 select,
    StableHlo.unary main_v22 main_v23 (broadcastInDim S100000x1 ![0] bcast_S100000_S100000x1_0 : (⟨S100000, .f32⟩ : BufTy).Contents (Elt F) → (⟨S100000x1, .f32⟩ : BufTy).Contents (Elt F)),
    StableHlo.unary main_v23 main_v24 (broadcastInDim S100000x128 ![0, 1] bcast_S100000x1_S100000x128_0_1 : (⟨S100000x1, .f32⟩ : BufTy).Contents (Elt F) → (⟨S100000x128, .f32⟩ : BufTy).Contents (Elt F)),
    StableHlo.binary main_v19 main_v24 main_v25 (Host.divf : (⟨S100000x128, .f32⟩ : BufTy).Contents (Elt F) → (⟨S100000x128, .f32⟩ : BufTy).Contents (Elt F) → (⟨S100000x128, .f32⟩ : BufTy).Contents (Elt F)) ]

/-- The operations of the residual and its normalisation: the last one writes the result `main_v42`. -/
abbrev opsNorm : List (HloOp τ sig (Elt F)) :=
  [ StableHlo.binary main_arg0 main_v25 main_v26 (addf : (⟨S100000x128, .f32⟩ : BufTy).Contents (Elt F) → (⟨S100000x128, .f32⟩ : BufTy).Contents (Elt F) → (⟨S100000x128, .f32⟩ : BufTy).Contents (Elt F)),
    StableHlo.binary main_v26 main_v26 main_v27 (mulf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.binary main_v27 main_cst_5 main_v28 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v28 main_v29 (broadcastInDim S100000x1 ![0] bcast_S100000_S100000x1_0 : (⟨S100000, .f32⟩ : BufTy).Contents (Elt F) → (⟨S100000x1, .f32⟩ : BufTy).Contents (Elt F)),
    StableHlo.nullary main_cst_6 (constant S_ .f32 0x43000000#32),
    StableHlo.unary main_cst_6 main_v30 (broadcastInDim S100000x1 ![] bcast_S_S100000x1 : (⟨S_, .f32⟩ : BufTy).Contents (Elt F) → (⟨S100000x1, .f32⟩ : BufTy).Contents (Elt F)),
    StableHlo.binary main_v29 main_v30 main_v31 (Host.divf : (⟨S100000x1, .f32⟩ : BufTy).Contents (Elt F) → (⟨S100000x1, .f32⟩ : BufTy).Contents (Elt F) → (⟨S100000x1, .f32⟩ : BufTy).Contents (Elt F)),
    StableHlo.nullary main_cst_7 (constant S_ .f32 0x3727C5AC#32),
    StableHlo.unary main_cst_7 main_v32 (broadcastInDim S100000x1 ![] bcast_S_S100000x1 : (⟨S_, .f32⟩ : BufTy).Contents (Elt F) → (⟨S100000x1, .f32⟩ : BufTy).Contents (Elt F)),
    StableHlo.binary main_v31 main_v32 main_v33 (addf : (⟨S100000x1, .f32⟩ : BufTy).Contents (Elt F) → (⟨S100000x1, .f32⟩ : BufTy).Contents (Elt F) → (⟨S100000x1, .f32⟩ : BufTy).Contents (Elt F)),
    StableHlo.unary main_v33 main_v34 (Host.rsqrt : (⟨S100000x1, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v26 main_v35 main_v36 (mulf : (⟨S100000x128, .f32⟩ : BufTy).Contents (Elt F) → (⟨S100000x128, .f32⟩ : BufTy).Contents (Elt F) → (⟨S100000x128, .f32⟩ : BufTy).Contents (Elt F)),
    StableHlo.unary main_arg3 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_arg4 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)) ]

/-- @main's operations, in order. -/
abbrev ops : List (HloOp τ sig (Elt F)) := opsLayer ++ (opsMean ++ opsNorm)

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsLayer_sub : (opsLayer : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
set_option maxRecDepth 8192 in
theorem opsMean_sub : (opsMean : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
set_option maxRecDepth 8192 in
theorem opsNorm_sub : (opsNorm : List (HloOp τ sig (Elt F))).Forall fun op => op.bufs ⊆ tcRefs τ sig :=
  ⟨StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

theorem ops_sub : (ops : List (HloOp τ sig (Elt F))).Forall fun op => op.bufs ⊆ tcRefs τ sig := by
  rw [List.forall_iff_forall_mem]
  intro op h
  rcases List.mem_append.mp h with h | h
  · exact (List.forall_iff_forall_mem.mp opsLayer_sub) op h
  rcases List.mem_append.mp h with h | h
  · exact (List.forall_iff_forall_mem.mp opsMean_sub) op h
  · exact (List.forall_iff_forall_mem.mp opsNorm_sub) op h

/-- No operation of the line allocates a buffer: each determines its results. -/
theorem ops_fresh : ∀ op ∈ (ops : List (HloOp τ sig (Elt F))), op.fresh = ∅ := by
  intro op h
  rcases List.mem_append.mp h with h | h
  · (repeat (cases h with | head => rfl | tail _ h => ?_)); exact nomatch h
  rcases List.mem_append.mp h with h | h
  · (repeat (cases h with | head => rfl | tail _ h => ?_)); exact nomatch h
  · (repeat (cases h with | head => rfl | tail _ h => ?_)); exact nomatch h

/-- On every device, for any float values, from any memory with zero counters: every weakly fair execution of
    @main terminates with every buffer at the three stretches' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsNorm (after opsMean (after opsLayer (launchContents m d))) (Proc.devRef .tc b) :=
  (θ_run defs _ _).mono (fun _ h d b => by rw [h d b, Cert.HostLine.after_append, Cert.HostLine.after_append])
    (run_seq scopedRefs_eq scopedSems_eq defs main (fun _ => ops) main_eq (fun _ => ops_sub) m ρ (fun _ => ops_fresh))

end Cert.ReferenceIdeal.RefRun

end
-- ==== Proof.RefRead.lean ====
/-
  The idealized reference's three stages as functions of their operands, and each stretch of its @main read back
  as its stage.

  * `layer x W b`   — the node-wise layer relu(x·Wᵀ + b): the product of x with the transposed weight, the bias
    spread over the rows, the maximum with zero.
  * `mean f r c`    — the neighbourhood mean of the node features f over the edges (r, c): the degree of a node is
    the number of edges whose target r is that node; the features of each edge's source c (a negative index
    counted from the end) are gathered and summed by target; the sum is divided by the degree, or by one where
    the degree is zero.
  * `norm x a g t`  — the residual h = x + a, scaled row by row by the reciprocal root of the mean of its squares
    plus a small constant, then by the gain g and shifted by t.
-/
import proofs.«177201_j59330678227073_2_alg».proof.Proof.RefRun
import proofs.«177201_j59330678227073_2_alg».proof.Proof.LibReadFold

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReadFold

variable {F : FTy → Type} [FloatOps F]

/-- relu(x·Wᵀ + b), as the reference spells it. -/
def layer (x : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  maximumf
    (addf (Host.dotGeneral dot_S100000x128_S128x128_S100000x128_1_0_0_1_n_n none x (transpose S128x128 [1, 0] W transposes_S128x128_S128x128_1_0))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The degree of every node: a one added at its target for every edge. -/
def degree (r : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 r)
    (broadcastInDim S1600000 ![] bcast_S_S1600000 (constant (F := F) S_ .f32 0x3F800000#32))

/-- The sources' features summed by target and divided by the degree (by one where it is zero). -/
def mean (f : (⟨S100000x128, .f32⟩ : BufTy).Contents (Elt F)) (r c : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 r)
      (Host.gather gather_S100000x128_S1600000x1_S1600000x128_1_0_n_n_0_1_1128 f
        (broadcastInDim S1600000x1 ![0] bcast_S1600000_S1600000x1_0
          (select (cmpi .slt c (broadcastInDim S1600000 ![] bcast_S_S1600000 (constantI S_ 32 0#32)))
            (addi c (broadcastInDim S1600000 ![] bcast_S_S1600000 (constantI S_ 32 100000#32))) c))))
    (broadcastInDim S100000x128 ![0, 1] bcast_S100000x1_S100000x128_0_1
      (broadcastInDim S100000x1 ![0] bcast_S100000_S100000x1_0
        (select (cmpf .oeq (degree r) (broadcastInDim S100000 ![] bcast_S_S100000 (constant (F := F) S_ .f32 0x00000000#32)))
          (broadcastInDim S100000 ![] bcast_S_S100000 (id (constant (F := F) S_ .f32 0x3F800000#32)))
          (degree r))))

/-- The residual, normalised by the root mean square of its row, gained and shifted. -/
def norm (x a : (⟨S100000x128, .f32⟩ : BufTy).Contents (Elt F)) (g t : (⟨S128, .f32⟩ : BufTy).Contents (Elt F)) :
    (⟨S100000x128, .f32⟩ : BufTy).Contents (Elt F) :=
  addf
    (mulf
      (mulf (addf x a)
        (broadcastInDim S100000x128 ![0, 1] bcast_S100000x1_S100000x128_0_1
          (Host.rsqrt
            (addf
              (Host.divf
                (broadcastInDim S100000x1 ![0] bcast_S100000_S100000x1_0
                  (Host.reduceAdd (mulf (addf x a) (addf x a)) (constant (F := F) S_ .f32 0x00000000#32) reducesTo_S100000x128_S100000_d1 h_S_))
                (broadcastInDim S100000x1 ![] bcast_S_S100000x1 (constant (F := F) S_ .f32 0x43000000#32)))
              (broadcastInDim S100000x1 ![] bcast_S_S100000x1 (constant (F := F) S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 t))

variable (V : Valuation τ sig (Elt F))

/-- The first stretch leaves the layer in `main_v5`. -/
theorem read_layer : after opsLayer V (Proc.devRef .tc main_v5)
    = layer (V (Proc.devRef .tc main_arg0)) (V (Proc.devRef .tc main_arg1)) (V (Proc.devRef .tc main_arg2)) := by
  unfold layer
  read_fold

/-- The second stretch leaves the mean in `main_v25`. -/
theorem read_mean : after opsMean V (Proc.devRef .tc main_v25)
    = mean (V (Proc.devRef .tc main_v5)) (V (Proc.devRef .tc main_arg5)) (V (Proc.devRef .tc main_arg6)) := by
  unfold mean degree
  read_fold

/-- The third stretch leaves the normalised residual in the result. -/
theorem read_norm : after opsNorm V (Proc.devRef .tc main_v42)
    = norm (V (Proc.devRef .tc main_arg0)) (V (Proc.devRef .tc main_v25)) (V (Proc.devRef .tc main_arg3)) (V (Proc.devRef .tc main_arg4)) := by
  unfold norm
  read_fold

/-! No operation of the first two stretches writes an argument: each argument read later is as launched. -/
theorem layer_keeps_arg0 : after opsLayer V (Proc.devRef .tc main_arg0) = V (Proc.devRef .tc main_arg0) := by after_results_simp
theorem layer_keeps_arg3 : after opsLayer V (Proc.devRef .tc main_arg3) = V (Proc.devRef .tc main_arg3) := by after_results_simp
theorem layer_keeps_arg4 : after opsLayer V (Proc.devRef .tc main_arg4) = V (Proc.devRef .tc main_arg4) := by after_results_simp
theorem layer_keeps_arg5 : after opsLayer V (Proc.devRef .tc main_arg5) = V (Proc.devRef .tc main_arg5) := by after_results_simp
theorem layer_keeps_arg6 : after opsLayer V (Proc.devRef .tc main_arg6) = V (Proc.devRef .tc main_arg6) := by after_results_simp
theorem mean_keeps_arg0 : after opsMean V (Proc.devRef .tc main_arg0) = V (Proc.devRef .tc main_arg0) := by after_results_simp
theorem mean_keeps_arg3 : after opsMean V (Proc.devRef .tc main_arg3) = V (Proc.devRef .tc main_arg3) := by after_results_simp
theorem mean_keeps_arg4 : after opsMean V (Proc.devRef .tc main_arg4) = V (Proc.devRef .tc main_arg4) := by after_results_simp

/-! No operation of the line writes an argument: every argument ends as launched. -/
theorem kept_arg0 : after opsNorm (after opsMean (after opsLayer V)) (Proc.devRef .tc main_arg0) = V (Proc.devRef .tc main_arg0) := by after_results_simp
theorem kept_arg1 : after opsNorm (after opsMean (after opsLayer V)) (Proc.devRef .tc main_arg1) = V (Proc.devRef .tc main_arg1) := by after_results_simp
theorem kept_arg2 : after opsNorm (after opsMean (after opsLayer V)) (Proc.devRef .tc main_arg2) = V (Proc.devRef .tc main_arg2) := by after_results_simp
theorem kept_arg3 : after opsNorm (after opsMean (after opsLayer V)) (Proc.devRef .tc main_arg3) = V (Proc.devRef .tc main_arg3) := by after_results_simp
theorem kept_arg4 : after opsNorm (after opsMean (after opsLayer V)) (Proc.devRef .tc main_arg4) = V (Proc.devRef .tc main_arg4) := by after_results_simp
theorem kept_arg5 : after opsNorm (after opsMean (after opsLayer V)) (Proc.devRef .tc main_arg5) = V (Proc.devRef .tc main_arg5) := by after_results_simp
theorem kept_arg6 : after opsNorm (after opsMean (after opsLayer V)) (Proc.devRef .tc main_arg6) = V (Proc.devRef .tc main_arg6) := by after_results_simp

/-- The reference's result as a function of its seven arguments. -/
def resultOf (x : (⟨S100000x128, .f32⟩ : BufTy).Contents (Elt F)) (W : (⟨S128x128, .f32⟩ : BufTy).Contents (Elt F))
    (b g t : (⟨S128, .f32⟩ : BufTy).Contents (Elt F)) (r c : (⟨S1600000, .i32⟩ : BufTy).Contents (Elt F)) :
    (⟨S100000x128, .f32⟩ : BufTy).Contents (Elt F) :=
  norm x (mean (layer x W b) r c) g t

/-- The whole line: the result buffer holds the normalised residual of x with the neighbourhood mean of the layer. -/
theorem result (m : (ℓ : Loc nD τ sig) → Buf (Elt F) ℓ) (d : Dev nD) :
    after opsNorm (after opsMean (after opsLayer (launchContents m d))) (Proc.devRef .tc main_v42)
      = norm (m ((d.tc : Thread nD τ).loc main_arg0))
          (mean (layer (m ((d.tc : Thread nD τ).loc main_arg0)) (m ((d.tc : Thread nD τ).loc main_arg1)) (m ((d.tc : Thread nD τ).loc main_arg2)))
            (m ((d.tc : Thread nD τ).loc main_arg5)) (m ((d.tc : Thread nD τ).loc main_arg6)))
          (m ((d.tc : Thread nD τ).loc main_arg3)) (m ((d.tc : Thread nD τ).loc main_arg4)) := by
  rw [read_norm, mean_keeps_arg0, mean_keeps_arg3, mean_keeps_arg4, read_mean, layer_keeps_arg0, layer_keeps_arg3,
    layer_keeps_arg4, layer_keeps_arg5, layer_keeps_arg6, read_layer]

end Cert.ReferenceIdeal.RefRun

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibHostRowSum.lean ====
/-
  The host's sum over the second axis of an [a, b] array, read at a row.

  `stablehlo.reduce` with an `add` body over axis 1, at the ideal values, holds at row r the initial value plus the sum
  over the row's entries: the reduced index r with the dropped coordinate k put back is (r, k). No finiteness is asked:
  this is how the exact sum is defined, with the summation index renamed.
-/
import Idealize.ShloMosaic.Lib.Pipeline.Value
import Idealize.ShloMosaic.Lib.ValueIdx
import Idealize.ShloMosaic.PureOps.Ideal.Laws

noncomputable section

open scoped BigOperators

namespace Cert.HostRowSum

open Idealize.ShloMosaic Idealize.ShloMosaic.ValueIdx

/-- The reduced index r with the second-axis coordinate k put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A shape fact of the host's reduction names the inserted index as well. -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) :=
  let ⟨hr, hs⟩ := h'; ⟨hr, Nat.one_pos, hs⟩

/-- The host's sum over the second axis, at row r: the initial value plus the sum over the row. -/
theorem hostRowSum_apply {a b : ℕ} (src : (⟨2, ![a, b]⟩ : Shape).Idx → EReal) (init : EReal)
    (h' : (⟨2, ![a, b]⟩ : Shape).ReducesTo [1] (⟨1, ![a]⟩ : Shape)) (r : Fin a) :
    Ideal.hostReduceAdd h' src init (ix1 r) = init + ∑ k : Fin b, src (ix2 r k) :=
  (Ideal.hostReduceAdd_single h' (reduces_of_reducesTo h') src init (ix1 r)).trans
    (congrArg (init + ·) (Finset.sum_congr rfl fun k _ => congrArg src (lift_row (reduces_of_reducesTo h') r k)))

/-- With the zero word as the initial value: the sum over the row. -/
theorem hostRowSum_zero_apply {a b : ℕ} (src : (⟨2, ![a, b]⟩ : Shape).Idx → EReal)
    (h' : (⟨2, ![a, b]⟩ : Shape).ReducesTo [1] (⟨1, ![a]⟩ : Shape)) (r : Fin a) :
    Ideal.hostReduceAdd h' src (Ideal.ofBits .f32 0x00000000#32) (ix1 r) = ∑ k : Fin b, src (ix2 r k) := by
  rw [hostRowSum_apply, Ideal.ofBits_zero_f32, zero_add]

end Cert.HostRowSum

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.RefStage.lean ====
/-
  The reference's layer and its normalised residual, read at one entry. The layer's product is the host's
  dot_general of x with the transposed weight (one contracted axis: a plain sum over the 128 features), its bias
  a vector spread first into a 1×128 row and then over all rows, its clamp a maximum with a scalar zero spread
  over the array. The normalisation sums the squares of a row on the host, keeps the sum as a column, divides by
  the scalar 128 and adds the scalar small constant (both spread over the column), takes the reciprocal root and
  spreads the column back over the lanes.
-/
import proofs.«177201_j59330678227073_2_alg».proof.Proof.RefRead
import proofs.«177201_j59330678227073_2_alg».proof.Proof.Spec
import proofs.«177201_j59330678227073_2_alg».proof.Proof.LibPlainDot
import proofs.«177201_j59330678227073_2_alg».proof.Proof.LibRowInDim
import proofs.«177201_j59330678227073_2_alg».proof.Proof.LibHostRowSum
import proofs.«177201_j59330678227073_2_alg».proof.Proof.LibColumnInDim
import Idealize.ShloMosaic.Lib.Pipeline.Value

noncomputable section

namespace Cert.ReferenceIdeal.RefRun

open Cert.ReferenceIdeal Cert.ReferenceIdeal.Gen Cert.Spec Idealize.ShloMosaic Idealize.ShloMosaic.ValueIdx

/-- The layer at (p, q): entry (p, q) of relu(x·Wᵀ + b) with the bias as its 1×128 row. -/
theorem layer_apply (x : FVec Ideal S100000x128 .f32) (W : FVec Ideal S128x128 .f32) (b : FVec Ideal S128 .f32)
    (p : Fin 100000) (q : Fin 128) :
    layer (F := Ideal) x W b (ix2 p q)
      = layerAt x (transpose S128x128 [1, 0] W transposes_S128x128_S128x128_1_0)
          (broadcastInDim S1x128 ![1] bcast_S128_S1x128_1 b) p q := by
  have hmm : Host.dotGeneral (F := Ideal) dot_S100000x128_S128x128_S100000x128_1_0_0_1_n_n none x
        (transpose S128x128 [1, 0] W transposes_S128x128_S128x128_1_0) (ix2 p q)
      = ∑ k : Fin 128, x (ix2 p k) * transpose S128x128 [1, 0] W transposes_S128x128_S128x128_1_0 (ix2 k q) :=
    Cert.PlainDot.dotGeneral_apply dot_S100000x128_S128x128_S100000x128_1_0_0_1_n_n rfl none _ x _ p q
  have hb : broadcastInDim S100000x128 ![0, 1] bcast_S1x128_S100000x128_0_1
        (broadcastInDim S1x128 ![1] bcast_S128_S1x128_1 b) (ix2 p q)
      = broadcastInDim S1x128 ![1] bcast_S128_S1x128_1 b (ix2 (0 : Fin 1) q) :=
    Cert.RowInDim.broadcastInDim_rows (by decide) _ bcast_S1x128_S100000x128_0_1 p q
  have hz : broadcastInDim S100000x128 ![] bcast_S_S100000x128 (constant (F := Ideal) S_ .f32 0x00000000#32) (ix2 p q)
      = Ideal.ofBits .f32 0x00000000#32 :=
    Cert.HostLine.scalar_everywhere bcast_S_S100000x128 _ _
  show max (Host.dotGeneral (F := Ideal) dot_S100000x128_S128x128_S100000x128_1_0_0_1_n_n none x
        (transpose S128x128 [1, 0] W transposes_S128x128_S128x128_1_0) (ix2 p q)
      + broadcastInDim S100000x128 ![0, 1] bcast_S1x128_S100000x128_0_1
        (broadcastInDim S1x128 ![1] bcast_S128_S1x128_1 b) (ix2 p q))
      (broadcastInDim S100000x128 ![] bcast_S_S100000x128 (constant (F := Ideal) S_ .f32 0x00000000#32) (ix2 p q)) = _
  rw [hmm, hb, hz]
  rfl

/-- The host's sum of the squares of a row, kept as a column, at row p. -/
theorem squares_column (x a : FVec Ideal S100000x128 .f32) (p : Fin 100000) :
    broadcastInDim S100000x1 ![0] bcast_S100000_S100000x1_0
        (Host.reduceAdd (F := Ideal) (mulf (addf x a) (addf x a)) (constant (F := Ideal) S_ .f32 0x00000000#32)
          reducesTo_S100000x128_S100000_d1 h_S_) (ix2 p (0 : Fin 1))
      = rowSquares x a p := by
  refine (Cert.ColumnInDim.broadcastInDim_column (a := 100000) _ bcast_S100000_S100000x1_0 p 0).trans ?_
  show Ideal.hostReduceAdd reducesTo_S100000x128_S100000_d1 (mulf (addf x a) (addf x a)) (Ideal.ofBits .f32 0x00000000#32) (ix1 p) = _
  exact Cert.HostRowSum.hostRowSum_zero_apply (a := 100000) (b := 128) (mulf (addf x a) (addf x a)) reducesTo_S100000x128_S100000_d1 p

/-- The normalised residual at (p, q), with gain and shift as their 1×128 rows. -/
theorem norm_apply (x a : FVec Ideal S100000x128 .f32) (g t : FVec Ideal S128 .f32) (p : Fin 100000) (q : Fin 128) :
    norm (F := Ideal) x a g t (ix2 p q)
      = normAt x a (broadcastInDim S1x128 ![1] bcast_S128_S1x128_1 g) (broadcastInDim S1x128 ![1] bcast_S128_S1x128_1 t) p q := by
  have hg : broadcastInDim S100000x128 ![0, 1] bcast_S1x128_S100000x128_0_1
        (broadcastInDim S1x128 ![1] bcast_S128_S1x128_1 g) (ix2 p q)
      = broadcastInDim S1x128 ![1] bcast_S128_S1x128_1 g (ix2 (0 : Fin 1) q) :=
    Cert.RowInDim.broadcastInDim_rows (by decide) _ bcast_S1x128_S100000x128_0_1 p q
  have ht : broadcastInDim S100000x128 ![0, 1] bcast_S1x128_S100000x128_0_1
        (broadcastInDim S1x128 ![1] bcast_S128_S1x128_1 t) (ix2 p q)
      = broadcastInDim S1x128 ![1] bcast_S128_S1x128_1 t (ix2 (0 : Fin 1) q) :=
    Cert.RowInDim.broadcastInDim_rows (by decide) _ bcast_S1x128_S100000x128_0_1 p q
  have hr : broadcastInDim (s := S100000x1) S100000x128 ![0, 1] bcast_S100000x1_S100000x128_0_1
        (Host.rsqrt (F := Ideal)
          (addf
            (Host.divf
              (broadcastInDim S100000x1 ![0] bcast_S100000_S100000x1_0
                (Host.reduceAdd (F := Ideal) (mulf (addf x a) (addf x a)) (constant (F := Ideal) S_ .f32 0x00000000#32)
                  reducesTo_S100000x128_S100000_d1 h_S_))
              (broadcastInDim S100000x1 ![] bcast_S_S100000x1 (constant (F := Ideal) S_ .f32 0x43000000#32)))
            (broadcastInDim S100000x1 ![] bcast_S_S100000x1 (constant (F := Ideal) S_ .f32 0x3727C5AC#32))))
        (ix2 p q)
      = Ideal.rsqrt (Ideal.div (rowSquares x a p) (Ideal.ofBits .f32 0x43000000#32) + Ideal.ofBits .f32 0x3727C5AC#32) := by
    refine (Cert.ColumnInDim.broadcastInDim_lanes _ bcast_S100000x1_S100000x128_0_1 p q).trans ?_
    show Ideal.rsqrt (Ideal.div
        (broadcastInDim (s := S100000) S100000x1 ![0] bcast_S100000_S100000x1_0 _ (ix2 p (0 : Fin 1)))
        (broadcastInDim S100000x1 ![] bcast_S_S100000x1 (constant (F := Ideal) S_ .f32 0x43000000#32) (ix2 p (0 : Fin 1)))
      + broadcastInDim S100000x1 ![] bcast_S_S100000x1 (constant (F := Ideal) S_ .f32 0x3727C5AC#32) (ix2 p (0 : Fin 1))) = _
    rw [squares_column, Cert.HostLine.scalar_everywhere, Cert.HostLine.scalar_everywhere]
    rfl
  show (x (ix2 p q) + a (ix2 p q))
        * broadcastInDim (s := S100000x1) S100000x128 ![0, 1] bcast_S100000x1_S100000x128_0_1 _ (ix2 p q)
        * broadcastInDim S100000x128 ![0, 1] bcast_S1x128_S100000x128_0_1
            (broadcastInDim S1x128 ![1] bcast_S128_S1x128_1 g) (ix2 p q)
      + broadcastInDim S100000x128 ![0, 1] bcast_S1x128_S100000x128_0_1
          (broadcastInDim S1x128 ![1] bcast_S128_S1x128_1 t) (ix2 p q) = _
  rw [hr, hg, ht]
  rfl

end Cert.ReferenceIdeal.RefRun

end
-- ==== Proof.MeanEq.lean ====
/-
  The neighbourhood mean is one function on both sides. The kernel's host code and the reference form it by the
  same operations with the same dimension numbers: the degree count, the index normalisation, the gather by
  source, the sum by target, the division by the degree or by one. The kernel stores its features narrow and
  widens them after the gather; over the extended reals a change of format is the identity, so nothing is left
  between the two spellings.
-/
import proofs.«177201_j59330678227073_2_alg».proof.Proof.KernelRead
import proofs.«177201_j59330678227073_2_alg».proof.Proof.RefRead
import Idealize.ShloMosaic.PureOps.Ideal

noncomputable section

namespace Cert.Bridge

open Idealize.ShloMosaic

/-- The degree count is the same function. -/
theorem degree_eq (r : (⟨Cert.KernelIdeal.S1600000, .i32⟩ : BufTy).Contents (Elt Ideal)) :
    Cert.KernelIdeal.RunValue.degree (F := Ideal) r = Cert.ReferenceIdeal.RefRun.degree (F := Ideal) r := rfl

/-- The neighbourhood mean is the same function. -/
theorem mean_eq (f : (⟨Cert.KernelIdeal.S100000x128, .bf16⟩ : BufTy).Contents (Elt Ideal))
    (r c : (⟨Cert.KernelIdeal.S1600000, .i32⟩ : BufTy).Contents (Elt Ideal)) :
    Cert.KernelIdeal.RunValue.mean (F := Ideal) f r c = Cert.ReferenceIdeal.RefRun.mean (F := Ideal) f r c := by
  unfold Cert.KernelIdeal.RunValue.mean Cert.ReferenceIdeal.RefRun.mean
  rw [Cert.HostLine.extf_id, degree_eq]
  rfl

end Cert.Bridge

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.Bridge.lean ====
/-
  The two results are one function of the arguments. Entry (p, q) of either is the normalised residual of row p:
  the same formula of row p of x, row p of the neighbourhood mean, the gain of lane q and the shift of lane q. The
  means agree because the layers agree (the same inner product, the same bias lane, the same clamp) and the
  mean is one function of the layer on both sides. A vector viewed as a 1×128 row by a reshape (the kernel's
  plumbing) and by a broadcast along the lanes (the reference's) is the same row.
-/
import proofs.«177201_j59330678227073_2_alg».proof.Proof.KernelValue
import proofs.«177201_j59330678227073_2_alg».proof.Proof.RefStage
import proofs.«177201_j59330678227073_2_alg».proof.Proof.MeanEq
import proofs.«177201_j59330678227073_2_alg».proof.Proof.LibRowOfVector

noncomputable section

namespace Cert.Bridge

open Idealize.ShloMosaic Idealize.ShloMosaic.ValueIdx Cert.Spec

/-- A vector as a row: the kernel's reshape and the reference's broadcast read the same lane. -/
theorem row_eq (v : FVec Ideal Cert.KernelIdeal.S128 .f32) (q : Fin 128) :
    shapeCast Cert.KernelIdeal.S1x128 v Cert.KernelIdeal.Facts₀.shapeCasts_S128_S1x128 (ix2 (0 : Fin 1) q)
      = broadcastInDim Cert.ReferenceIdeal.S1x128 ![1] Cert.ReferenceIdeal.Facts₀.bcast_S128_S1x128_1 v (ix2 (0 : Fin 1) q) :=
  (Cert.RowOfVector.shapeCast_row v _ 0 q).trans (Cert.RowOfVector.broadcastInDim_row (by decide) v _ 0 q).symm

/-- The layer is the same array on both sides. -/
theorem layer_eq (x : FVec Ideal Cert.KernelIdeal.S100000x128 .f32) (W : FVec Ideal Cert.KernelIdeal.S128x128 .f32)
    (b : FVec Ideal Cert.KernelIdeal.S128 .f32) :
    Cert.KernelIdeal.RunValue.layerOf x W b = Cert.ReferenceIdeal.RefRun.layer (F := Ideal) x W b := by
  funext i
  obtain ⟨p, q, rfl⟩ : ∃ (p : Fin 100000) (q : Fin 128), i = ix2 p q := ⟨i 0, i 1, eq_ix2 i⟩
  rw [Cert.ReferenceIdeal.RefRun.layer_apply]
  exact layerAt_congr (fun _ => rfl) (fun _ => rfl) (row_eq b q)

/-- The results are the same array on both sides. -/
theorem result_eq (x : FVec Ideal Cert.KernelIdeal.S100000x128 .f32) (W : FVec Ideal Cert.KernelIdeal.S128x128 .f32)
    (b g t : FVec Ideal Cert.KernelIdeal.S128 .f32)
    (r c : (⟨Cert.KernelIdeal.S1600000, .i32⟩ : BufTy).Contents (Elt Ideal)) :
    Cert.KernelIdeal.RunValue.resultOf x W b g t r c = Cert.ReferenceIdeal.RefRun.resultOf (F := Ideal) x W b g t r c := by
  funext i
  obtain ⟨p, q, rfl⟩ : ∃ (p : Fin 100000) (q : Fin 128), i = ix2 p q := ⟨i 0, i 1, eq_ix2 i⟩
  unfold Cert.KernelIdeal.RunValue.resultOf Cert.ReferenceIdeal.RefRun.resultOf
  rw [normArr_apply, Cert.ReferenceIdeal.RefRun.norm_apply]
  refine normAt_congr (fun _ => rfl) (fun l => ?_) (row_eq g q) (row_eq t q)
  rw [mean_eq, layer_eq]

end Cert.Bridge

end
-- ==== Proof.lean ====
/-
  A graph-convolution layer with a residual and a root-mean-square normalisation, kernel against reference, over
  the extended reals.

  Both programs compute, for 100000 nodes with 128 features and 1600000 edges (target, source):
    f   = relu(x·Wᵀ + b)                                   the node-wise layer,
    a   = (sum over the edges into a node of f at the edge's source) / (the node's in-degree, or 1 if it is 0),
    h   = x + a,
    out = h · rsqrt(mean over the lanes of h² + 9.99999974e-6) · gamma + beta.
  The kernel forms f in a first grid of 20 row blocks on the matrix unit (operands and output narrowed to bf16:
  the identity here), a on the host exactly as the reference does (the gathered features widened back: the
  identity again), and out in a second grid of 20 row blocks; the reference is host operations throughout.

  The proof reads each side back as one function of the seven arguments. Kernel: its run over the two regions
  ends with the result buffer at the last boundary's contents; each region's output array is one whole-array
  function of the arrays the region is entered with (its 20 blocks are the blocks of that function and fill the
  array); the host operations between them are read as they stand. Reference: its 57 operations are read in three
  stretches. Entry by entry the two normalised residuals are the same formula of row p of x and of the mean,
  and of lane q of gain and shift; the means are one function of the layers, and the layers agree entry by entry
  (one inner product over the 128 features, one bias lane, one clamp). No law of arithmetic beyond the congruence
  of equal operands is used, so the inputs' finiteness is never needed. The idealization rewrote nothing, so the
  kernel's idealized text is its own text read over the extended reals.
-/
import proofs.«177201_j59330678227073_2_alg».proof.Defs
import proofs.«177201_j59330678227073_2_alg».proof.Proof.Gen.Kernel
import proofs.«177201_j59330678227073_2_alg».proof.Proof.Gen.Kernel.Skeleton
import proofs.«177201_j59330678227073_2_alg».proof.Proof.Gen.Kernel.Launch
import proofs.«177201_j59330678227073_2_alg».proof.Proof.Gen.Kernel.Points
import proofs.«177201_j59330678227073_2_alg».proof.Proof.Gen.Kernel.Frame
import proofs.«177201_j59330678227073_2_alg».proof.Proof.Gen.KernelIdeal
import proofs.«177201_j59330678227073_2_alg».proof.Proof.Gen.KernelIdeal.Skeleton
import proofs.«177201_j59330678227073_2_alg».proof.Proof.Gen.KernelIdeal.Launch
import proofs.«177201_j59330678227073_2_alg».proof.Proof.Gen.KernelIdeal.Points
import proofs.«177201_j59330678227073_2_alg».proof.Proof.Gen.KernelIdeal.Frame
import proofs.«177201_j59330678227073_2_alg».proof.Proof.Gen.ReferenceIdeal
import proofs.«177201_j59330678227073_2_alg».proof.Proof.Gen.Pre_finite_inputs
import proofs.«177201_j59330678227073_2_alg».proof.Proof.Bridge
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run read back, the result dropped. -/
theorem frame_referenceIdeal : Cert.frame_ReferenceIdeal := fun m ρ _ =>
  (θ_run Cert.ReferenceIdeal.defs _ _).mono
    (fun _ h c =>
      ⟨(h c _).trans (Cert.ReferenceIdeal.RefRun.kept_arg0 _), (h c _).trans (Cert.ReferenceIdeal.RefRun.kept_arg1 _),
       (h c _).trans (Cert.ReferenceIdeal.RefRun.kept_arg2 _), (h c _).trans (Cert.ReferenceIdeal.RefRun.kept_arg3 _),
       (h c _).trans (Cert.ReferenceIdeal.RefRun.kept_arg4 _), (h c _).trans (Cert.ReferenceIdeal.RefRun.kept_arg5 _),
       (h c _).trans (Cert.ReferenceIdeal.RefRun.kept_arg6 _)⟩)
    (Cert.ReferenceIdeal.RefRun.run (F := Ideal) m ρ)

/-- The idealization rewrote no operation: there is nothing to preserve. -/
theorem preserves : Cert.preserves_Kernel_KernelIdeal := trivial

/-- From memories agreeing on the seven arguments both idealized programs end with the same result array. -/
theorem algebraic : Cert.algebraic_KernelIdeal_ReferenceIdeal := by
  intro m ρ m' ρ' _ hagree
  refine ⟨fun c => Cert.KernelIdeal.RunValue.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.RunValue.result_of m ρ c), (h c).2⟩)
      (Cert.KernelIdeal.RunValue.run_result (F := Ideal) m ρ)
  · refine (θ_run Cert.ReferenceIdeal.defs _ _).mono
      (fun _ h c =>
        ⟨?_, (h c _).trans (Cert.ReferenceIdeal.RefRun.kept_arg0 _), (h c _).trans (Cert.ReferenceIdeal.RefRun.kept_arg1 _),
         (h c _).trans (Cert.ReferenceIdeal.RefRun.kept_arg2 _), (h c _).trans (Cert.ReferenceIdeal.RefRun.kept_arg3 _),
         (h c _).trans (Cert.ReferenceIdeal.RefRun.kept_arg4 _), (h c _).trans (Cert.ReferenceIdeal.RefRun.kept_arg5 _),
         (h c _).trans (Cert.ReferenceIdeal.RefRun.kept_arg6 _)⟩)
      (Cert.ReferenceIdeal.RefRun.run (F := Ideal) m' ρ')
    obtain ⟨a0, a1, a2, a3, a4, a5, a6⟩ := hagree c
    rw [h c Cert.ReferenceIdeal.main_v42, Cert.ReferenceIdeal.RefRun.result m' c, a0, a1, a2, a3, a4, a5, a6]
    exact (Cert.Bridge.result_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
